-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000x2 : Shape := ⟨2, ![1200000, 2]⟩
abbrev S64x128 : Shape := ⟨2, ![64, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x64 .f32) (main_arg1 : IVec S1200000x2 32) (main_arg2 : FVec F S64x128 .f32) (main_arg3 : FVec F S128 .f32) (main_arg4 : FVec F S128x40 .f32) (main_arg5 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x64 : Shape := ⟨2, ![100000, 64]⟩
abbrev S1200000x2 : Shape := ⟨2, ![1200000, 2]⟩
abbrev S64x128 : Shape := ⟨2, ![64, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1200000x1 : Shape := ⟨2, ![1200000, 1]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x128 : Shape := ⟨2, ![1, 128]⟩
abbrev S100000x40 : Shape := ⟨2, ![100000, 40]⟩
abbrev S20000x64 : Shape := ⟨2, ![20000, 64]⟩
abbrev S20000x40 : Shape := ⟨2, ![20000, 40]⟩
abbrev S20000x128 : Shape := ⟨2, ![20000, 128]⟩
abbrev S1300000x40 : Shape := ⟨2, ![1300000, 40]⟩
abbrev S1x40 : Shape := ⟨2, ![1, 40]⟩
abbrev S20000 : Shape := ⟨1, ![20000]⟩
abbrev S20000x1 : Shape := ⟨2, ![20000, 1]⟩

abbrev nBuf : Space → Nat
  | .hbm => 43
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1200000x2, .i32⟩
  | .hbm, ⟨2, _⟩ => ⟨S64x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1200000x1, .i32⟩
  | .hbm, ⟨8, _⟩ => ⟨S1200000, .i32⟩
  | .hbm, ⟨9, _⟩ => ⟨S1300000, .i32⟩
  | .hbm, ⟨10, _⟩ => ⟨S1200000x1, .i32⟩
  | .hbm, ⟨11, _⟩ => ⟨S1200000, .i32⟩
  | .hbm, ⟨12, _⟩ => ⟨S1300000, .i32⟩
  | .hbm, ⟨13, _⟩ => ⟨S_, .i32⟩
  | .hbm, ⟨14, _⟩ => ⟨S1300000, .i32⟩
  | .hbm, ⟨15, _⟩ => ⟨S1300000, .i1⟩
  | .hbm, ⟨16, _⟩ => ⟨S_, .i32⟩
  | .hbm, ⟨17, _⟩ => ⟨S1300000, .i32⟩
  | .hbm, ⟨18, _⟩ => ⟨S1300000, .i32⟩
  | .hbm, ⟨19, _⟩ => ⟨S1300000, .i32⟩
  | .hbm, ⟨20, _⟩ => ⟨S1300000x1, .i32⟩
  | .hbm, ⟨21, _⟩ => ⟨S1300000x64, .f32⟩
  | .hbm, ⟨22, _⟩ => ⟨S_, .f32⟩
  | .hbm, ⟨23, _⟩ => ⟨S100000x64, .f32⟩
  | .hbm, ⟨24, _⟩ => ⟨S1300000x1, .i32⟩
  | .hbm, ⟨25, _⟩ => ⟨S100000x64, .f32⟩
  | .hbm, ⟨26, _⟩ => ⟨S1x128, .f32⟩
  | .hbm, ⟨27, _⟩ => ⟨S100000x40, .f32⟩
  | .hbm, ⟨28, _⟩ => ⟨S_, .i32⟩
  | .hbm, ⟨29, _⟩ => ⟨S1300000, .i32⟩
  | .hbm, ⟨30, _⟩ => ⟨S1300000, .i1⟩
  | .hbm, ⟨31, _⟩ => ⟨S_, .i32⟩
  | .hbm, ⟨32, _⟩ => ⟨S1300000, .i32⟩
  | .hbm, ⟨33, _⟩ => ⟨S1300000, .i32⟩
  | .hbm, ⟨34, _⟩ => ⟨S1300000, .i32⟩
  | .hbm, ⟨35, _⟩ => ⟨S1300000x1, .i32⟩
  | .hbm, ⟨36, _⟩ => ⟨S1300000x40, .f32⟩
  | .hbm, ⟨37, _⟩ => ⟨S_, .f32⟩
  | .hbm, ⟨38, _⟩ => ⟨S100000x40, .f32⟩
  | .hbm, ⟨39, _⟩ => ⟨S1300000x1, .i32⟩
  | .hbm, ⟨40, _⟩ => ⟨S100000x40, .f32⟩
  | .hbm, ⟨41, _⟩ => ⟨S1x40, .f32⟩
  | .hbm, ⟨42, _⟩ => ⟨S100000x40, .f32⟩
  | .local _ .vmem, ⟨0, _⟩ => ⟨S20000x64, .f32⟩
  | .local _ .vmem, ⟨1, _⟩ => ⟨S20000x64, .f32⟩
  | .local _ .vmem, ⟨2, _⟩ => ⟨S64x128, .f32⟩
  | .local _ .vmem, ⟨3, _⟩ => ⟨S1x128, .f32⟩
  | .local _ .vmem, ⟨4, _⟩ => ⟨S128x40, .f32⟩
  | .local _ .vmem, ⟨5, _⟩ => ⟨S20000x40, .f32⟩
  | .local _ .vmem, ⟨6, _⟩ => ⟨S20000x40, .f32⟩
  | .local _ .vmem, ⟨7, _⟩ => ⟨S20000x40, .f32⟩
  | .local _ .vmem, ⟨8, _⟩ => ⟨S20000x40, .f32⟩
  | .local _ .vmem, ⟨9, _⟩ => ⟨S1x40, .f32⟩
  | .local _ .vmem, ⟨10, _⟩ => ⟨S20000x40, .f32⟩
  | .local _ .vmem, ⟨11, _⟩ => ⟨S20000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S20000x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S1200000x2_S1200000x1_0_0 : S1200000x2.Slices ![0, 0] S1200000x1
  shapeCasts_S1200000x1_S1200000 : S1200000x1.ShapeCasts S1200000
  concatenates_S1200000_S100000_S1300000_d0 : Shape.Concatenates [S1200000, S100000] S1300000 0
  slices_S1200000x2_S1200000x1_0_1 : S1200000x2.Slices ![0, 1] S1200000x1
  bcast_S_S1300000 : S_.BroadcastsInDim S1300000 (![] : Fin 0 → Fin S1300000.rank)
  bcast_S1300000_S1300000x1_0 : S1300000.BroadcastsInDim S1300000x1 (![0] : Fin 1 → Fin S1300000x1.rank)
  bcast_S_S100000x64 : S_.BroadcastsInDim S100000x64 (![] : Fin 0 → Fin S100000x64.rank)
  shapeCasts_S128_S1x128 : S128.ShapeCasts S1x128
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20000x128 : S1x128.Broadcasts S20000x128
  inb_S128x40_S128x40_0_0 : ∀ a, (![0, 0] : Fin 2 → Nat) a + S128x40.size a ≤ S128x40.size a
  h_S128x40 : 0 < S128x40.numel
  inb_S20000x40_S20000x40_0_0 : ∀ a, (![0, 0] : Fin 2 → Nat) a + S20000x40.size a ≤ S20000x40.size a
  h_S20000x40 : 0 < S20000x40.numel
  bcast_S_S100000x40 : S_.BroadcastsInDim S100000x40 (![] : Fin 0 → Fin S100000x40.rank)
  shapeCasts_S40_S1x40 : S40.ShapeCasts S1x40
  shapeCasts_S20000x40_S20000x40 : S20000x40.ShapeCasts S20000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S20000x40 : S1x40.Broadcasts S20000x40
  reduces_S20000x40_S20000 : S20000x40.Reduces [1] S20000
  shapeCasts_S20000_S20000x1 : S20000.ShapeCasts S20000x1
  broadcasts_S20000x1_S20000x40 : S20000x1.Broadcasts S20000x40
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S20000x64_S64x128_S20000x128_1_0_0_1_n_n_wf : DotDims.WF S20000x64 S64x128 S20000x128 [1] [0] [0] [1] [] []
  dot_S20000x128_S128x40_S20000x40_1_0_0_1_n_n_wf : DotDims.WF S20000x128 S128x40 S20000x40 [1] [0] [0] [1] [] []
  gather_S100000x40_S1300000x1_S1300000x40_1_0_n_n_0_1_140_wf : GatherDims.WF S100000x40 S1300000x1 S1300000x40 [1] [0] [] [0] [] 1 ![1, 40]
  scatter_S100000x40_S1300000x1_S1300000x40_1_0_0_1_wf : ScatterDims.WF S100000x40 S1300000x1 S1300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x40.size a ≤ S128x40.size a
  hwx0_3 : ∀ i : grid0.Coords, EltTy.bits .f32 = 32 ∨ (Rect.block (s := S128x40) S128x40.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S20000x40.size a ≤ S100000x40.size a
  hwx0_4 : ∀ i : grid0.Coords, EltTy.bits .f32 = 32 ∨ (Rect.block (s := S100000x40) S20000x40.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x40.size a ≤ S100000x40.size a
  hwx1_0 : ∀ i : grid1.Coords, EltTy.bits .f32 = 32 ∨ (Rect.block (s := S100000x40) S20000x40.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x40.size a ≤ S1x40.size a
  hwx1_1 : ∀ i : grid1.Coords, EltTy.bits .f32 = 32 ∨ (Rect.block (s := S1x40) S1x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x40.size a ≤ S100000x40.size a
  hwx1_2 : ∀ i : grid1.Coords, EltTy.bits .f32 = 32 ∨ (Rect.block (s := S100000x40) S20000x40.size (cc1_transform_2 i) (hinb1_2 i)).WholeWords (EltTy.packing .f32)

variable [Facts₀]

def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def dot_S20000x128_S128x40_S20000x40_1_0_0_1_n_n : DotDims S20000x128 S128x40 S20000x40 where
  lhsContracting := [1]
  rhsContracting := [0]
  lhsNonContracting := [0]
  rhsNonContracting := [1]
  lhsBatch := []
  rhsBatch := []
  wf := dot_S20000x128_S128x40_S20000x40_1_0_0_1_n_n_wf
def gather_S100000x40_S1300000x1_S1300000x40_1_0_n_n_0_1_140 : GatherDims S100000x40 S1300000x1 S1300000x40 where
  offsetDims := [1]
  collapsedSliceDims := [0]
  operandBatchingDims := []
  startIndicesBatchingDims := []
  startIndexMap := [0]
  indexVectorDim := 1
  sliceSizes := ![1, 40]
  wf := gather_S100000x40_S1300000x1_S1300000x40_1_0_n_n_0_1_140_wf
def scatter_S100000x40_S1300000x1_S1300000x40_1_0_0_1 : ScatterDims S100000x40 S1300000x1 S1300000x40 where
  updateWindowDims := [1]
  insertedWindowDims := [0]
  scatterDimsToOperandDims := [0]
  indexVectorDim := 1
  wf := scatter_S100000x40_S1300000x1_S1300000x40_1_0_0_1_wf

abbrev win0_0 : Pipeline.Window sig grid0 :=
  Pipeline.Window.ofSpec (Memref.whole main_v16) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S20000x40.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v28) S20000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S20000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000x2 : Shape := ⟨2, ![1200000, 2]⟩
abbrev S64x128 : Shape := ⟨2, ![64, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1200000x1 : Shape := ⟨2, ![1200000, 1]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S100000x128 : Shape := ⟨2, ![100000, 128]⟩
abbrev S1x128 : Shape := ⟨2, ![1, 128]⟩
abbrev S1300000x128 : Shape := ⟨2, ![1300000, 128]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000x2, .i32⟩
  | .hbm, ⟨2, _⟩ => ⟨S64x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1200000x1, .i32⟩
  | .hbm, ⟨8, _⟩ => ⟨S1200000, .i32⟩
  | .hbm, ⟨9, _⟩ => ⟨S1300000, .i32⟩
  | .hbm, ⟨10, _⟩ => ⟨S1200000x1, .i32⟩
  | .hbm, ⟨11, _⟩ => ⟨S1200000, .i32⟩
  | .hbm, ⟨12, _⟩ => ⟨S1300000, .i32⟩
  | .hbm, ⟨13, _⟩ => ⟨S_, .i32⟩
  | .hbm, ⟨14, _⟩ => ⟨S1300000, .i32⟩
  | .hbm, ⟨15, _⟩ => ⟨S1300000, .i1⟩
  | .hbm, ⟨16, _⟩ => ⟨S_, .i32⟩
  | .hbm, ⟨17, _⟩ => ⟨S1300000, .i32⟩
  | .hbm, ⟨18, _⟩ => ⟨S1300000, .i32⟩
  | .hbm, ⟨19, _⟩ => ⟨S1300000, .i32⟩
  | .hbm, ⟨20, _⟩ => ⟨S1300000x1, .i32⟩
  | .hbm, ⟨21, _⟩ => ⟨S1300000x64, .f32⟩
  | .hbm, ⟨22, _⟩ => ⟨S_, .f32⟩
  | .hbm, ⟨23, _⟩ => ⟨S100000x64, .f32⟩
  | .hbm, ⟨24, _⟩ => ⟨S1300000x1, .i32⟩
  | .hbm, ⟨25, _⟩ => ⟨S100000x64, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1300000, .i32⟩
  | .hbm, ⟨35, _⟩ => ⟨S1300000, .i1⟩
  | .hbm, ⟨36, _⟩ => ⟨S_, .i32⟩
  | .hbm, ⟨37, _⟩ => ⟨S1300000, .i32⟩
  | .hbm, ⟨38, _⟩ => ⟨S1300000, .i32⟩
  | .hbm, ⟨39, _⟩ => ⟨S1300000, .i32⟩
  | .hbm, ⟨40, _⟩ => ⟨S1300000x1, .i32⟩
  | .hbm, ⟨41, _⟩ => ⟨S1300000x128, .f32⟩
  | .hbm, ⟨42, _⟩ => ⟨S_, .f32⟩
  | .hbm, ⟨43, _⟩ => ⟨S100000x128, .f32⟩
  | .hbm, ⟨44, _⟩ => ⟨S1300000x1, .i32⟩
  | .hbm, ⟨45, _⟩ => ⟨S100000x128, .f32⟩
  | .hbm, ⟨46, _⟩ => ⟨S100000x40, .f32⟩
  | .hbm, ⟨47, _⟩ => ⟨S1x40, .f32⟩
  | .hbm, ⟨48, _⟩ => ⟨S100000x40, .f32⟩
  | .hbm, ⟨49, _⟩ => ⟨S100000x40, .f32⟩
  | .hbm, ⟨50, _⟩ => ⟨S_, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x40, .f32⟩
  | .hbm, ⟨57, _⟩ => ⟨S100000x40, .f32⟩
  | .hbm, ⟨58, _⟩ => ⟨S100000x40, .f32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S100000x40, .f32⟩
  | .hbm, ⟨63, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S1200000x2_S1200000x1_0_0 : S1200000x2.Slices ![0, 0] S1200000x1
  shapeCasts_S1200000x1_S1200000 : S1200000x1.ShapeCasts S1200000
  concatenates_S1200000_S100000_S1300000_d0 : Shape.Concatenates [S1200000, S100000] S1300000 0
  slices_S1200000x2_S1200000x1_0_1 : S1200000x2.Slices ![0, 1] S1200000x1
  bcast_S_S1300000 : S_.BroadcastsInDim S1300000 (![] : Fin 0 → Fin S1300000.rank)
  bcast_S1300000_S1300000x1_0 : S1300000.BroadcastsInDim S1300000x1 (![0] : Fin 1 → Fin S1300000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x128_S100000x128_1_0_0_1_n_n_wf : DotDims.WF S100000x64 S64x128 S100000x128 [1] [0] [0] [1] [] []
  gather_S100000x128_S1300000x1_S1300000x128_1_0_n_n_0_1_1128_wf : GatherDims.WF S100000x128 S1300000x1 S1300000x128 [1] [0] [] [0] [] 1 ![1, 128]
  scatter_S100000x128_S1300000x1_S1300000x128_1_0_0_1_wf : ScatterDims.WF S100000x128 S1300000x1 S1300000x128 [1] [0] [0] 1
  dot_S100000x128_S128x40_S100000x40_1_0_0_1_n_n_wf : DotDims.WF S100000x128 S128x40 S100000x40 [1] [0] [0] [1] [] []

variable [Facts₀]

def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1300000x1_S1300000x128_1_0_n_n_0_1_1128 : GatherDims S100000x128 S1300000x1 S1300000x128 where
  offsetDims := [1]
  collapsedSliceDims := [0]
  operandBatchingDims := []
  startIndicesBatchingDims := []
  startIndexMap := [0]
  indexVectorDim := 1
  sliceSizes := ![1, 128]
  wf := gather_S100000x128_S1300000x1_S1300000x128_1_0_n_n_0_1_1128_wf
def scatter_S100000x128_S1300000x1_S1300000x128_1_0_0_1 : ScatterDims S100000x128 S1300000x1 S1300000x128 where
  updateWindowDims := [1]
  insertedWindowDims := [0]
  scatterDimsToOperandDims := [0]
  indexVectorDim := 1
  wf := scatter_S100000x128_S1300000x1_S1300000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel program's run with its result array named.

  The program is four segments: host operations, the dense-layer region, host operations, the softmax region.
  The buffer contents at each segment boundary are a fold through the program: the launch memory, then the first
  stretch of host operations applied to it, then the first region's arrays replaced by what its write-backs leave,
  then the second stretch, then the second region's arrays replaced in the same way. Every weakly fair execution
  terminates without a fault in a state whose unscoped buffers hold the last contents of that fold; read at the
  result buffer and at the six argument buffers this is the statement below.
-/
import proofs.«151712_j1400159338837_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    contents of the fold through the program and the six argument buffers as launched. -/
theorem run : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Named

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.DensePayload.lean ====
/-
  The dense-layer kernel's stored value, read at one entry.

  For a block of 20000 rows the body computes, from the block `a` of aggregated features (20000 × 64), the first
  weight matrix `w₁` (64 × 128), the first bias as a row `b₁` (1 × 128) and the second weight matrix `w₂`
  (128 × 40): the product `a · w₁` into zero, plus the bias row repeated down the rows, clipped below at zero,
  times `w₂` into zero. At the ideal values its entry at row `p`, column `q` is

      ∑ k, max (∑ d, a (p, d) · w₁ (d, k) + b₁ (0, k)) 0 · w₂ (k, q).
-/
import proofs.«151712_j1400159338837_2_alg».proof.Proof.Gen.KernelIdeal.Skeleton
import proofs.«151712_j1400159338837_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.KernelIdeal.DensePayload

open Cert.KernelIdeal Cert.KernelIdeal.Gen Idealize.ShloMosaic Idealize.ShloMosaic.ValueIdx

/-- One row of the hidden layer: `max (∑ d, a d · w₁ (d, k) + b k) 0`. -/
def hiddenRow (a : Fin 64 → EReal) (w1 : S64x128.Idx → EReal) (b : Fin 128 → EReal) (k : Fin 128) : EReal :=
  max ((∑ d : Fin 64, a d * w1 (ix2 d k)) + b k) 0

/-- The hidden layer never goes below zero. -/
theorem hiddenRow_nonneg (a : Fin 64 → EReal) (w1 : S64x128.Idx → EReal) (b : Fin 128 → EReal) (k : Fin 128) :
    0 ≤ hiddenRow a w1 b k := le_max_right _ _

/-- The bias row repeated down the rows reads, at `(p, k)`, the row at `(0, k)`. -/
theorem biasRows_apply (x2 : FVec Ideal S1x128 .f32) (p : Fin 20000) (k : Fin 128) :
    broadcastTo S20000x128 (shapeCast S1x128 x2 shapeCasts_S1x128_S1x128) broadcasts_S1x128_S20000x128 (ix2 p k)
      = x2 (ix2 (0 : Fin 1) k) := by
  rw [shapeCast_self]
  refine broadcastTo_apply x2 _ (ix2 p k) (ix2 (0 : Fin 1) k) (fun a => ?_)
  match a with
  | ⟨0, _⟩ => rfl
  | ⟨1, _⟩ => rfl

/-- The hidden block at `(p, k)`. -/
theorem hidden_apply (x0 : FVec Ideal S20000x64 .f32) (x1 : FVec Ideal S64x128 .f32) (x2 : FVec Ideal S1x128 .f32)
    (p : Fin 20000) (k : Fin 128) :
    maximumf (addf (matmul (F := Ideal) (φ₁ := .f32) (φ₂ := .f32) dot_S20000x64_S64x128_S20000x128_1_0_0_1_n_n none
          (shapeCast S20000x64 x0 shapeCasts_S20000x64_S20000x64) x1 (constant S20000x128 .f32 0x00000000#32))
        (broadcastTo S20000x128 (shapeCast S1x128 x2 shapeCasts_S1x128_S1x128) broadcasts_S1x128_S20000x128))
      (broadcast S20000x128 (Scalar.ofBits (F := Ideal) .f32 0x00000000#32)) (ix2 p k)
      = hiddenRow (fun d => x0 (ix2 p d)) x1 (fun k => x2 (ix2 (0 : Fin 1) k)) k := by
  rw [maximumf_apply, addf_apply, biasRows_apply, broadcast_apply, shapeCast_self]
  unfold hiddenRow
  refine congrArg₂ max (congrArg (· + _) ?_) Ideal.ofBits_zero_f32
  exact Cert.Lib.PlainDot.matmul_zero_apply (M := 20000) (K := 64) (N := 128) none x0 x1 p k

/-- The stored block at `(p, q)`. -/
theorem pay_apply (x0 : Vec Ideal S20000x64 .f32) (x1 : Vec Ideal S64x128 .f32) (x2 : Vec Ideal S1x128 .f32)
    (x3 : Vec Ideal S128x40 .f32) (p : Fin 20000) (q : Fin 40) :
    Gen.k0_pay1 x0 x1 x2 x3 (ix2 p q)
      = ∑ k : Fin 128, hiddenRow (fun d => x0 (ix2 p d)) x1 (fun k => x2 (ix2 (0 : Fin 1) k)) k * x3 (ix2 k q) := by
  unfold Gen.k0_pay1
  refine (Cert.Lib.PlainDot.matmul_zero_apply (M := 20000) (K := 128) (N := 40) none _ x3 p q).trans ?_
  exact Finset.sum_congr rfl fun k _ => congrArg (· * _) (hidden_apply x0 x1 x2 p k)

/-- The dense layer as one function of whole arrays: entry `(r, q)` of the result is
    `∑ k, max (∑ d, A (r, d) · W₁ (d, k) + B₁ (0, k)) 0 · W₂ (k, q)`. -/
def denseFn (A : S100000x64.Idx → EReal) (W1 : S64x128.Idx → EReal) (B1 : S1x128.Idx → EReal) (W2 : S128x40.Idx → EReal) :
    S100000x40.Idx → EReal :=
  fun i => ∑ k : Fin 128, hiddenRow (fun d => A (ix2 (⟨(i 0).val, idx2_lt0 i⟩ : Fin 100000) d)) W1 (fun k => B1 (ix2 (0 : Fin 1) k)) k
    * W2 (ix2 k (⟨(i 1).val, idx2_lt1 i⟩ : Fin 40))

/-- It read at an index whose coordinates are `r` and `q`. -/
theorem denseFn_apply (A : S100000x64.Idx → EReal) (W1 : S64x128.Idx → EReal) (B1 : S1x128.Idx → EReal) (W2 : S128x40.Idx → EReal)
    (i : S100000x40.Idx) (r : Fin 100000) (q : Fin 40) (hr : (i 0).val = r.val) (hq : (i 1).val = q.val) :
    denseFn A W1 B1 W2 i
      = ∑ k : Fin 128, hiddenRow (fun d => A (ix2 r d)) W1 (fun k => B1 (ix2 (0 : Fin 1) k)) k * W2 (ix2 k q) := by
  unfold denseFn
  rw [show (⟨(i 0).val, idx2_lt0 i⟩ : Fin 100000) = r from Fin.ext hr, show (⟨(i 1).val, idx2_lt1 i⟩ : Fin 40) = q from Fin.ext hq]

end Cert.KernelIdeal.DensePayload

end
-- ==== Proof.DenseRegion.lean ====
/-
  The dense-layer region as one function of whole arrays.

  The region runs the body at five grid points; point `t` stages rows `20000 t … 20000 t + 19999` of the
  aggregated features and the whole of the two weight matrices and the bias row, and writes back rows
  `20000 t … 20000 t + 19999` of the result. What point `t` writes back is block `t` of ONE function of the arrays as the
  region finds them (the body's stored value read entry by entry), and the five blocks tile the result array, so after
  the region the result array holds that function.
-/
import proofs.«151712_j1400159338837_2_alg».proof.Proof.Gen.KernelIdeal.Frame
import proofs.«151712_j1400159338837_2_alg».proof.Proof.DensePayload
import Idealize.ShloMosaic.Lib.Pipeline.Value

set_option maxRecDepth 16384

noncomputable section

open scoped BigOperators

namespace Cert.KernelIdeal.DenseRegion

open Cert.KernelIdeal Cert.KernelIdeal.Gen Cert.KernelIdeal.DensePayload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each grid point: the features' and the result's row block is the point, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The features' block at point `t`: entry `(p, d)` is the array's entry at row `20000 t + p`. -/
theorem iblk_features (c : Dev nD) (t : Fin cfg0.N) (p : Fin 20000) (d : Fin 64) (r : Fin 100000)
    (hr : r.val = t.val * 20000 + p.val) :
    (iblk0 V c 0 t : Vec Ideal S20000x64 .f32) (ix2 p d) = (V c main_v16 : S100000x64.Idx → EReal) (ix2 r d) := by
  obtain ⟨e0, e1, -⟩ := idx_facts t
  unfold iblk0
  rw [View.read_apply]
  show V c main_v16 _ = V c main_v16 _
  refine congrArg _ (funext fun a => Fin.ext ?_)
  match a with
  | ⟨0, _⟩ => show win0_0.index t 0 * 20000 + 1 * p.val = r.val; rw [e0, hr]; omega
  | ⟨1, _⟩ => show win0_0.index t 1 * 64 + 1 * d.val = d.val; rw [e1]; omega

/-- The first weight matrix is staged whole at every point. -/
theorem iblk_w1 (c : Dev nD) (t : Fin cfg0.N) :
    (iblk0 V c 1 t : Vec Ideal S64x128 .f32) = (V c main_arg2 : S64x128.Idx → EReal) := by
  obtain ⟨-, -, e0, e1, -⟩ := idx_facts t
  funext y
  unfold iblk0
  rw [View.read_apply]
  show V c main_arg2 _ = V c main_arg2 y
  refine congrArg _ (funext fun a => Fin.ext ?_)
  match a with
  | ⟨0, _⟩ => show win0_1.index t 0 * 64 + 1 * (y 0).val = (y 0).val; rw [e0]; omega
  | ⟨1, _⟩ => show win0_1.index t 1 * 128 + 1 * (y 1).val = (y 1).val; rw [e1]; omega

/-- The bias row is staged whole at every point. -/
theorem iblk_b1 (c : Dev nD) (t : Fin cfg0.N) :
    (iblk0 V c 2 t : Vec Ideal S1x128 .f32) = (V c main_v17 : S1x128.Idx → EReal) := by
  obtain ⟨-, -, -, -, e0, e1, -⟩ := idx_facts t
  funext y
  unfold iblk0
  rw [View.read_apply]
  show V c main_v17 _ = V c main_v17 y
  refine congrArg _ (funext fun a => Fin.ext ?_)
  match a with
  | ⟨0, _⟩ => show win0_2.index t 0 * 1 + 1 * (y 0).val = (y 0).val; rw [e0]; omega
  | ⟨1, _⟩ => show win0_2.index t 1 * 128 + 1 * (y 1).val = (y 1).val; rw [e1]; omega

/-- The second weight matrix is staged whole at every point. -/
theorem iblk_w2 (c : Dev nD) (t : Fin cfg0.N) :
    (iblk0 V c 3 t : Vec Ideal S128x40 .f32) = (V c main_arg4 : S128x40.Idx → EReal) := by
  obtain ⟨-, -, -, -, -, -, e0, e1, -⟩ := idx_facts t
  funext y
  unfold iblk0
  rw [View.read_apply]
  show V c main_arg4 _ = V c main_arg4 y
  refine congrArg _ (funext fun a => Fin.ext ?_)
  match a with
  | ⟨0, _⟩ => show win0_3.index t 0 * 128 + 1 * (y 0).val = (y 0).val; rw [e0]; omega
  | ⟨1, _⟩ => show win0_3.index t 1 * 40 + 1 * (y 1).val = (y 1).val; rw [e1]; omega

/-- What point `t` writes back is block `t` of the dense layer's function of the arrays as the region finds them. -/
theorem flushed_eq (c : Dev nD) (t : Fin cfg0.N) :
    (dat0 V c).flushed 4 t = ((cfg0.win 4).blk t).view.read (Elt Ideal)
      (denseFn (V c main_v16) (V c main_arg2) (V c main_v17) (V c main_arg4)) := by
  show (cfg0.win 4).cut (grid0.coords t) ((dat0 V c).after 4 t) = _
  rw [after0_4]
  unfold out0_4
  rw [View.canon_unit_zero hz]
  simp only [View.ld_unit_zero (S := S20000x64) hz, View.ld_unit_zero (S := S64x128) hz, View.ld_unit_zero (S := S1x128) hz,
    View.ld_unit_zero (S := S128x40) hz]
  obtain ⟨-, -, -, -, -, -, -, -, e0, e1⟩ := idx_facts t
  have hN : t.val < 5 := lt_of_lt_of_eq t.isLt (show cfg0.N = 5 from N_0)
  funext j
  obtain ⟨p, q, rfl⟩ : ∃ (p : Fin 20000) (q : Fin 40), j = ix2 p q := ⟨j 0, j 1, eq_ix2 j⟩
  have hr : t.val * 20000 + p.val < 100000 := by have := p.isLt; omega
  show k0_pay1 (iblk0 V c 0 t) (iblk0 V c 1 t) (iblk0 V c 2 t) (iblk0 V c 3 t) (ix2 p q)
    = denseFn (V c main_v16) (V c main_arg2) (V c main_v17) (V c main_arg4) (((cfg0.win 4).blk t).view.emb (ix2 p q))
  rw [iblk_w1, iblk_b1, iblk_w2]
  refine (pay_apply _ _ _ _ p q).trans ?_
  refine ((denseFn_apply _ _ _ _ _ ⟨t.val * 20000 + p.val, hr⟩ q ?_ ?_).trans ?_).symm
  · show win0_4.index t 0 * 20000 + 1 * p.val = t.val * 20000 + p.val; rw [e0]; omega
  · show win0_4.index t 1 * 40 + 1 * q.val = q.val; rw [e1]; omega
  · refine Finset.sum_congr rfl fun k _ => congrArg (· * _) ?_
    refine congrArg (fun a => hiddenRow a _ _ k) (funext fun d => ?_)
    exact (iblk_features V c t p d ⟨_, hr⟩ rfl).symm

/-- An index of the result array is in point `t`'s block iff each coordinate is in the block's range on its axis. -/
theorem mem_blk (t : Fin cfg0.N) (i : S100000x40.Idx) :
    i ∈ ((cfg0.win 4).blk t).view.set ↔ ∀ a : Fin 2, win0_4.index t a * S20000x40.size a ≤ (i a).val
      ∧ (i a).val < win0_4.index t a * S20000x40.size a + S20000x40.size a := by
  show i ∈ ((View.whole main_v18).slice (win0_4.rect t)).set ↔ _
  rw [View.set_slice_whole, Rect.mem_set_unit]
  exact Iff.rfl

/-- Every index of the result array is in the block of the point its row falls in. -/
theorem cover (i : S100000x40.Idx) : ∃ t : Fin cfg0.N, (cfg0.win 4).flush t = true ∧ i ∈ ((cfg0.win 4).blk t).view.set := by
  have h0 : (i 0).val < 100000 := idx2_lt0 i
  have h1 : (i 1).val < 40 := idx2_lt1 i
  let t : Fin cfg0.N := ⟨(i 0).val / 20000, by rw [show cfg0.N = 5 from N_0]; omega⟩
  obtain ⟨-, -, -, -, -, -, -, -, e0, e1⟩ := idx_facts t
  have ht : t.val = (i 0).val / 20000 := rfl
  refine ⟨t, flush0_4 t, ?_⟩
  rw [mem_blk]
  intro a
  match a with
  | ⟨0, _⟩ => show win0_4.index t 0 * 20000 ≤ (i 0).val ∧ (i 0).val < win0_4.index t 0 * 20000 + 20000; rw [e0, ht]; omega
  | ⟨1, _⟩ => show win0_4.index t 1 * 40 ≤ (i 1).val ∧ (i 1).val < win0_4.index t 1 * 40 + 40; rw [e1]; omega

/-- After the region the result array holds the dense layer's function of the arrays as the region found them. -/
theorem final (c : Dev nD) :
    (dat0 V c).arrAt 4 cfg0.N = denseFn (V c main_v16) (V c main_arg2) (V c main_v17) (V c main_arg4) :=
  (dat0 V c).arrAt_eq_of_cover 4 _ (fun t _ => flushed_eq V c t) cover

end Cert.KernelIdeal.DenseRegion

end
-- ==== Proof.SoftmaxPayload.lean ====
/-
  The softmax kernel's stored value, read at one entry.

  For a block of 20000 rows the body adds the bias row `b` (1 × 40) to the block `a` (20000 × 40), takes each
  row's maximum, subtracts it, exponentiates, and divides by the row's sum of exponentials. At the ideal values its
  entry at row `p`, column `q` is the softmax of the row `fun k => a (p, k) + b (0, k)` at `q`.
-/
import proofs.«151712_j1400159338837_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.SoftmaxPayload

open Cert.KernelIdeal Cert.KernelIdeal.Gen Idealize.ShloMosaic Idealize.ShloMosaic.ValueIdx

/-- A row's maximum: the fold of `max` from minus infinity over its forty entries. -/
def rowMax (x : Fin 40 → EReal) : EReal :=
  (Finset.univ : Finset (Fin 40)).fold max (Ideal.ofBits .f32 0xFF800000#32) x

/-- The softmax of a row of forty extended reals at entry `q`: `exp (x q − max x) / ∑ k, exp (x k − max x)`. -/
def softmaxRow (x : Fin 40 → EReal) (q : Fin 40) : EReal :=
  Ideal.div (Ideal.exp (x q - rowMax x)) (∑ k : Fin 40, Ideal.exp (x k - rowMax x))

/-- The reduced index `p` with column `k` put back is `(p, k)`. -/
theorem lift_ix2 (h : S20000x40.Reduces [1] S20000) (p : Fin 20000) (k : Fin (S20000x40.size 1)) :
    h.lift (ix1 p) k = ix2 p (⟨k.val, k.isLt⟩ : Fin 40) := by
  funext c; apply Fin.ext
  match c with
  | ⟨0, _⟩ => rfl
  | ⟨1, _⟩ => rfl

/-- A vector of 20000 entries viewed as a column and repeated along 40 columns reads, at `(p, q)`, entry `p`. -/
theorem colBroadcast_apply {α : Type} (z : S20000.Idx → α) (p : Fin 20000) (q : Fin 40) :
    broadcastTo S20000x40 (shapeCast S20000x1 z shapeCasts_S20000_S20000x1) broadcasts_S20000x1_S20000x40 (ix2 p q)
      = z (ix1 p) := by
  refine (broadcastTo_apply _ broadcasts_S20000x1_S20000x40 (ix2 p q) (ix2 p (0 : Fin 1)) (fun a => ?_)).trans ?_
  · match a with
    | ⟨0, _⟩ => rfl
    | ⟨1, _⟩ => rfl
  · refine shapeCast_apply z shapeCasts_S20000_S20000x1 _ _ ?_
    rw [Shape.rowMajor_val_one, Shape.rowMajor_val_two]
    show p.val = p.val * 1 + 0
    omega

/-- The bias row repeated down the rows reads, at `(p, k)`, the row at `(0, k)`. -/
theorem biasRows_apply (x1 : FVec Ideal S1x40 .f32) (p : Fin 20000) (k : Fin 40) :
    broadcastTo S20000x40 (shapeCast S1x40 x1 shapeCasts_S1x40_S1x40) broadcasts_S1x40_S20000x40 (ix2 p k)
      = x1 (ix2 (0 : Fin 1) k) := by
  rw [shapeCast_self]
  refine broadcastTo_apply x1 _ (ix2 p k) (ix2 (0 : Fin 1) k) (fun a => ?_)
  match a with
  | ⟨0, _⟩ => rfl
  | ⟨1, _⟩ => rfl

/-- A row maximum taken by the vector unit over the 40 lanes, at row `p`. -/
theorem laneMax_apply (v : FVec Ideal S20000x40 .f32) (hφ : FKind.Formats .f32)
    (hacc : (0xFF800000#32 : BitVec 32) = 0xFF800000#32) (p : Fin 20000) :
    multiReduction .maximumf [1] S20000 v 0xFF800000#32 reduces_S20000x40_S20000 hφ hacc (ix1 p)
      = rowMax (fun k => v (ix2 p k)) := by
  refine (Ideal.multiReduction_maximumf_single v 0xFF800000#32 reduces_S20000x40_S20000 hφ hacc (ix1 p)).trans ?_
  unfold rowMax
  refine congrArg (fun f => Finset.fold max (Ideal.ofBits .f32 0xFF800000#32) f (Finset.univ : Finset (Fin 40))) ?_
  funext k
  exact congrArg v (lift_ix2 reduces_S20000x40_S20000 p k)

/-- A row sum taken by the vector unit over the 40 lanes, at row `p`. -/
theorem laneSum_apply (v : FVec Ideal S20000x40 .f32) (hφ : FKind.Formats .f32)
    (hacc : (0x00000000#32 : BitVec 32) = 0x00000000#32) (p : Fin 20000) :
    multiReduction .add [1] S20000 v 0x00000000#32 reduces_S20000x40_S20000 hφ hacc (ix1 p)
      = ∑ k : Fin 40, v (ix2 p k) := by
  refine (Ideal.multiReduction_add_single v 0x00000000#32 reduces_S20000x40_S20000 hφ hacc (ix1 p)).trans ?_
  exact Finset.sum_congr rfl fun k _ => congrArg v (lift_ix2 reduces_S20000x40_S20000 p k)

/-- A block with each row's maximum subtracted, exponentiated, and divided by the row's sum of exponentials, at
    `(p, q)`: the softmax of row `p` at `q`. -/
theorem softmaxBlock_apply (v5 : FVec Ideal S20000x40 .f32) (p : Fin 20000) (q : Fin 40) :
    divf (exp (subf v5 (broadcastTo S20000x40 (shapeCast S20000x1
          (multiReduction .maximumf [1] S20000 v5 0xFF800000#32 reduces_S20000x40_S20000 (.inl rfl) rfl) shapeCasts_S20000_S20000x1)
          broadcasts_S20000x1_S20000x40)))
      (broadcastTo S20000x40 (shapeCast S20000x1
          (multiReduction .add [1] S20000 (exp (subf v5 (broadcastTo S20000x40 (shapeCast S20000x1
              (multiReduction .maximumf [1] S20000 v5 0xFF800000#32 reduces_S20000x40_S20000 (.inl rfl) rfl) shapeCasts_S20000_S20000x1)
              broadcasts_S20000x1_S20000x40))) 0x00000000#32 reduces_S20000x40_S20000 (.inl rfl) rfl) shapeCasts_S20000_S20000x1)
          broadcasts_S20000x1_S20000x40) (ix2 p q)
      = softmaxRow (fun k => v5 (ix2 p k)) q := by
  have he : ∀ k : Fin 40, exp (subf v5 (broadcastTo S20000x40 (shapeCast S20000x1
        (multiReduction .maximumf [1] S20000 v5 0xFF800000#32 reduces_S20000x40_S20000 (.inl rfl) rfl) shapeCasts_S20000_S20000x1)
        broadcasts_S20000x1_S20000x40)) (ix2 p k)
      = Ideal.exp (v5 (ix2 p k) - rowMax (fun k => v5 (ix2 p k))) := fun k => by
    show Ideal.exp (subf v5 _ (ix2 p k)) = _
    rw [subf_apply, colBroadcast_apply, laneMax_apply]
  rw [divf_apply, colBroadcast_apply, laneSum_apply, he q]
  unfold softmaxRow
  exact congrArg (Ideal.div _) (Finset.sum_congr rfl fun k _ => he k)

/-- The stored block at `(p, q)`. -/
theorem pay_apply (x0 : Vec Ideal S20000x40 .f32) (x1 : Vec Ideal S1x40 .f32) (p : Fin 20000) (q : Fin 40) :
    Gen.k1_pay1 x0 x1 (ix2 p q) = softmaxRow (fun k => x0 (ix2 p k) + x1 (ix2 (0 : Fin 1) k)) q := by
  unfold Gen.k1_pay1
  refine (softmaxBlock_apply _ p q).trans ?_
  refine congrArg (fun f => softmaxRow f q) (funext fun k => ?_)
  rw [addf_apply, biasRows_apply, shapeCast_self]

/-- The bias-and-softmax layer as one function of whole arrays: entry `(r, q)` of the result is the softmax of
    the row `fun k => A (r, k) + B (0, k)` at `q`. -/
def softmaxFn (A : S100000x40.Idx → EReal) (B : S1x40.Idx → EReal) : S100000x40.Idx → EReal :=
  fun i => softmaxRow (fun k => A (ix2 (⟨(i 0).val, idx2_lt0 i⟩ : Fin 100000) k) + B (ix2 (0 : Fin 1) k)) (⟨(i 1).val, idx2_lt1 i⟩ : Fin 40)

/-- It read at an index whose coordinates are `r` and `q`. -/
theorem softmaxFn_apply (A : S100000x40.Idx → EReal) (B : S1x40.Idx → EReal) (i : S100000x40.Idx) (r : Fin 100000) (q : Fin 40)
    (hr : (i 0).val = r.val) (hq : (i 1).val = q.val) :
    softmaxFn A B i = softmaxRow (fun k => A (ix2 r k) + B (ix2 (0 : Fin 1) k)) q := by
  unfold softmaxFn
  rw [show (⟨(i 0).val, idx2_lt0 i⟩ : Fin 100000) = r from Fin.ext hr, show (⟨(i 1).val, idx2_lt1 i⟩ : Fin 40) = q from Fin.ext hq]

end Cert.KernelIdeal.SoftmaxPayload

end
-- ==== Proof.SoftmaxRegion.lean ====
/-
  The softmax region as one function of whole arrays.

  The region runs the body at five grid points; point `t` stages rows `20000 t … 20000 t + 19999` of the aggregated
  class scores and the whole bias row, and writes back the same rows of the result. What point `t` writes back is
  block `t` of ONE function of the arrays as the region finds them, and the five blocks tile the result array, so
  after the region the result array holds that function.
-/
import proofs.«151712_j1400159338837_2_alg».proof.Proof.Gen.KernelIdeal.Frame
import proofs.«151712_j1400159338837_2_alg».proof.Proof.SoftmaxPayload
import Idealize.ShloMosaic.Lib.Pipeline.Value

set_option maxRecDepth 16384

noncomputable section

open scoped BigOperators

namespace Cert.KernelIdeal.SoftmaxRegion

open Cert.KernelIdeal Cert.KernelIdeal.Gen Cert.KernelIdeal.SoftmaxPayload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each grid point: the scores' and the result's row block is the point, every
    other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The scores' block at point `t`: entry `(p, k)` is the array's entry at row `20000 t + p`. -/
theorem iblk_scores (c : Dev nD) (t : Fin cfg1.N) (p : Fin 20000) (k : Fin 40) (r : Fin 100000)
    (hr : r.val = t.val * 20000 + p.val) :
    (iblk1 V c 0 t : Vec Ideal S20000x40 .f32) (ix2 p k) = (V c main_v28 : S100000x40.Idx → EReal) (ix2 r k) := by
  obtain ⟨e0, e1, -⟩ := idx_facts t
  unfold iblk1
  rw [View.read_apply]
  show V c main_v28 _ = V c main_v28 _
  refine congrArg _ (funext fun a => Fin.ext ?_)
  match a with
  | ⟨0, _⟩ => show win1_0.index t 0 * 20000 + 1 * p.val = r.val; rw [e0, hr]; omega
  | ⟨1, _⟩ => show win1_0.index t 1 * 40 + 1 * k.val = k.val; rw [e1]; omega

/-- The bias row is staged whole at every point. -/
theorem iblk_bias (c : Dev nD) (t : Fin cfg1.N) :
    (iblk1 V c 1 t : Vec Ideal S1x40 .f32) = (V c main_v29 : S1x40.Idx → EReal) := by
  obtain ⟨-, -, e0, e1, -⟩ := idx_facts t
  funext y
  unfold iblk1
  rw [View.read_apply]
  show V c main_v29 _ = V c main_v29 y
  refine congrArg _ (funext fun a => Fin.ext ?_)
  match a with
  | ⟨0, _⟩ => show win1_1.index t 0 * 1 + 1 * (y 0).val = (y 0).val; rw [e0]; omega
  | ⟨1, _⟩ => show win1_1.index t 1 * 40 + 1 * (y 1).val = (y 1).val; rw [e1]; omega

/-- What point `t` writes back is block `t` of the softmax layer's function of the arrays as the region finds them. -/
theorem flushed_eq (c : Dev nD) (t : Fin cfg1.N) :
    (dat1 V c).flushed 2 t = ((cfg1.win 2).blk t).view.read (Elt Ideal) (softmaxFn (V c main_v28) (V c main_v29)) := by
  show (cfg1.win 2).cut (grid1.coords t) ((dat1 V c).after 2 t) = _
  rw [after1_2]
  unfold out1_2
  rw [View.canon_unit_zero hz]
  simp only [View.ld_unit_zero (S := S20000x40) hz, View.ld_unit_zero (S := S1x40) hz]
  obtain ⟨-, -, -, -, e0, e1⟩ := idx_facts t
  have hN : t.val < 5 := lt_of_lt_of_eq t.isLt (show cfg1.N = 5 from N_1)
  funext j
  obtain ⟨p, q, rfl⟩ : ∃ (p : Fin 20000) (q : Fin 40), j = ix2 p q := ⟨j 0, j 1, eq_ix2 j⟩
  have hr : t.val * 20000 + p.val < 100000 := by have := p.isLt; omega
  show k1_pay1 (iblk1 V c 0 t) (iblk1 V c 1 t) (ix2 p q)
    = softmaxFn (V c main_v28) (V c main_v29) (((cfg1.win 2).blk t).view.emb (ix2 p q))
  rw [iblk_bias]
  refine (pay_apply _ _ p q).trans ?_
  refine ((softmaxFn_apply _ _ _ ⟨t.val * 20000 + p.val, hr⟩ q ?_ ?_).trans ?_).symm
  · show win1_2.index t 0 * 20000 + 1 * p.val = t.val * 20000 + p.val; rw [e0]; omega
  · show win1_2.index t 1 * 40 + 1 * q.val = q.val; rw [e1]; omega
  · refine congrArg (fun f => softmaxRow f q) (funext fun k => congrArg (· + _) ?_)
    exact (iblk_scores V c t p k ⟨_, hr⟩ rfl).symm

/-- An index of the result array is in point `t`'s block iff each coordinate is in the block's range on its axis. -/
theorem mem_blk (t : Fin cfg1.N) (i : S100000x40.Idx) :
    i ∈ ((cfg1.win 2).blk t).view.set ↔ ∀ a : Fin 2, win1_2.index t a * S20000x40.size a ≤ (i a).val
      ∧ (i a).val < win1_2.index t a * S20000x40.size a + S20000x40.size a := by
  show i ∈ ((View.whole main_v30).slice (win1_2.rect t)).set ↔ _
  rw [View.set_slice_whole, Rect.mem_set_unit]
  exact Iff.rfl

/-- Every index of the result array is in the block of the point its row falls in. -/
theorem cover (i : S100000x40.Idx) : ∃ t : Fin cfg1.N, (cfg1.win 2).flush t = true ∧ i ∈ ((cfg1.win 2).blk t).view.set := by
  have h0 : (i 0).val < 100000 := idx2_lt0 i
  have h1 : (i 1).val < 40 := idx2_lt1 i
  let t : Fin cfg1.N := ⟨(i 0).val / 20000, by rw [show cfg1.N = 5 from N_1]; omega⟩
  obtain ⟨-, -, -, -, e0, e1⟩ := idx_facts t
  have ht : t.val = (i 0).val / 20000 := rfl
  refine ⟨t, flush1_2 t, ?_⟩
  rw [mem_blk]
  intro a
  match a with
  | ⟨0, _⟩ => show win1_2.index t 0 * 20000 ≤ (i 0).val ∧ (i 0).val < win1_2.index t 0 * 20000 + 20000; rw [e0, ht]; omega
  | ⟨1, _⟩ => show win1_2.index t 1 * 40 ≤ (i 1).val ∧ (i 1).val < win1_2.index t 1 * 40 + 40; rw [e1]; omega

/-- After the region the result array holds the softmax layer's function of the arrays as the region found them. -/
theorem final (c : Dev nD) :
    (dat1 V c).arrAt 2 cfg1.N = softmaxFn (V c main_v28) (V c main_v29) :=
  (dat1 V c).arrAt_eq_of_cover 2 _ (fun t _ => flushed_eq V c t) cover

end Cert.KernelIdeal.SoftmaxRegion

end
-- ==== Proof.HostReads.lean ====
/-
  The contents of the idealized kernel program's buffers at the entries of its two regions, as terms of the arguments.

  Before the dense-layer region the host has computed the first aggregation (a gather of feature rows by source node and
  a scatter-add by destination node) and viewed the first bias as a row; the region then leaves the dense layer's function
  of those in its result array. Before the softmax region the host has gathered the dense result's rows by source node
  and scatter-added them by destination node, and viewed the second bias as a row. The edge lists (with the self-loops
  appended) and the first aggregation are the same host terms the reference computes, and are named by the reference's
  stages.
-/
import proofs.«151712_j1400159338837_2_alg».proof.Proof.Gen.KernelIdeal.Frame
import proofs.«151712_j1400159338837_2_alg».proof.Proof.Gen.ReferenceIdeal.Read
import proofs.«151712_j1400159338837_2_alg».proof.Proof.DenseRegion
import proofs.«151712_j1400159338837_2_alg».proof.Proof.SoftmaxRegion
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo
open Cert.KernelIdeal.DensePayload (denseFn)
open Cert.KernelIdeal.SoftmaxPayload (softmaxFn)

variable (m : (ℓ : Loc nD τ sig) → Buf (Elt Ideal) ℓ) (ρ : Dev nD → PrngReg)

/-- The six argument arrays on core `c`. -/
abbrev a0 (c : Dev nD) : S100000x64.Idx → EReal := m ((c.tc : Thread nD τ).loc main_arg0)
abbrev a1 (c : Dev nD) : S1200000x2.Idx → BitVec 32 := m ((c.tc : Thread nD τ).loc main_arg1)
abbrev a2 (c : Dev nD) : S64x128.Idx → EReal := m ((c.tc : Thread nD τ).loc main_arg2)
abbrev a3 (c : Dev nD) : S128.Idx → EReal := m ((c.tc : Thread nD τ).loc main_arg3)
abbrev a4 (c : Dev nD) : S128x40.Idx → EReal := m ((c.tc : Thread nD τ).loc main_arg4)
abbrev a5 (c : Dev nD) : S40.Idx → EReal := m ((c.tc : Thread nD τ).loc main_arg5)

/-! ## At the dense-layer region's entry -/

/-- The aggregated features are the reference's first aggregation of the same arguments. -/
theorem entry0_features (c : Dev nD) :
    W1 m ρ c (Proc.devRef .tc main_v16) = Cert.ReferenceIdeal.Read.val_main_v16 (F := Ideal) (a0 m c) (a1 m c) := by
  dsimp only [W1, hostOps0]
  after_results
  rfl

/-- The first bias, viewed as a row. -/
theorem entry0_bias (c : Dev nD) :
    W1 m ρ c (Proc.devRef .tc main_v17) = shapeCast S1x128 (a3 m c) shapeCasts_S128_S1x128 := by
  dsimp only [W1, hostOps0]
  after_results
  rfl

/-- The weight matrices are the arguments. -/
theorem entry0_w1 (c : Dev nD) : W1 m ρ c (Proc.devRef .tc main_arg2) = a2 m c := by
  dsimp only [W1, hostOps0]
  after_results
theorem entry0_w2 (c : Dev nD) : W1 m ρ c (Proc.devRef .tc main_arg4) = a4 m c := by
  dsimp only [W1, hostOps0]
  after_results
theorem entry0_b2 (c : Dev nD) : W1 m ρ c (Proc.devRef .tc main_arg5) = a5 m c := by
  dsimp only [W1, hostOps0]
  after_results

/-- The source and destination node of every edge, self-loops appended: the reference's lists. -/
theorem entry0_src (c : Dev nD) :
    W1 m ρ c (Proc.devRef .tc main_v3) = Cert.ReferenceIdeal.Read.val_main_v3 (F := Ideal) (a1 m c) := by
  dsimp only [W1, hostOps0]
  after_results
  rfl
theorem entry0_dst (c : Dev nD) :
    W1 m ρ c (Proc.devRef .tc main_v6) = Cert.ReferenceIdeal.Read.val_main_v6 (F := Ideal) (a1 m c) := by
  dsimp only [W1, hostOps0]
  after_results
  rfl

/-! ## The program's result as one term of the arguments -/

/-- The aggregated class scores: the dense layer's rows gathered by source node and scatter-added into zero by
    destination node. -/
def kernelScores (x0 : S100000x64.Idx → EReal) (x1 : S1200000x2.Idx → BitVec 32) (x2 : S64x128.Idx → EReal)
    (x3 : S128.Idx → EReal) (x4 : S128x40.Idx → EReal) : S100000x40.Idx → EReal :=
  Host.scatterAdd (F := Ideal) scatter_S100000x40_S1300000x1_S1300000x40_1_0_0_1
    (broadcastInDim S100000x40 ![] bcast_S_S100000x40 (constant (F := Ideal) S_ .f32 0x00000000#32))
    (Cert.ReferenceIdeal.Read.val_main_v30 (F := Ideal) x1)
    (Host.gather gather_S100000x40_S1300000x1_S1300000x40_1_0_n_n_0_1_140
      (denseFn (Cert.ReferenceIdeal.Read.val_main_v16 (F := Ideal) x0 x1) x2 (shapeCast S1x128 x3 shapeCasts_S128_S1x128) x4)
      (Cert.ReferenceIdeal.Read.val_main_v27 (F := Ideal) x1))

/-- The program's result: the softmax layer of the aggregated class scores and the second bias viewed as a row. -/
def kernelResult (x0 : S100000x64.Idx → EReal) (x1 : S1200000x2.Idx → BitVec 32) (x2 : S64x128.Idx → EReal)
    (x3 : S128.Idx → EReal) (x4 : S128x40.Idx → EReal) (x5 : S40.Idx → EReal) : S100000x40.Idx → EReal :=
  softmaxFn (kernelScores x0 x1 x2 x3 x4) (shapeCast S1x40 x5 shapeCasts_S40_S1x40)

/-! ## At the softmax region's entry -/

/-- After its region the dense layer's result array holds the layer's function of the first aggregation, the weights
    and the bias row. -/
theorem exit0_dense (c : Dev nD) :
    W2 m ρ c (Proc.devRef .tc main_v18)
      = denseFn (Cert.ReferenceIdeal.Read.val_main_v16 (F := Ideal) (a0 m c) (a1 m c)) (a2 m c)
          (shapeCast S1x128 (a3 m c) shapeCasts_S128_S1x128) (a4 m c) := by
  refine (W2_arr m ρ c 4).trans ?_
  rw [Cert.KernelIdeal.DenseRegion.final (V1 m ρ) c]
  show denseFn (W1 m ρ c (Proc.devRef .tc main_v16)) (W1 m ρ c (Proc.devRef .tc main_arg2))
    (W1 m ρ c (Proc.devRef .tc main_v17)) (W1 m ρ c (Proc.devRef .tc main_arg4)) = _
  rw [entry0_features, entry0_w1, entry0_bias, entry0_w2]

/-- The aggregated class scores at the softmax region's entry. -/
theorem entry1_scores (c : Dev nD) :
    W3 m ρ c (Proc.devRef .tc main_v28) = kernelScores (a0 m c) (a1 m c) (a2 m c) (a3 m c) (a4 m c) := by
  dsimp only [W3, hostOps1]
  after_results
  rw [W2_of_ne m ρ c main_v6 (by decide), W2_of_ne m ρ c main_v3 (by decide), exit0_dense, entry0_src, entry0_dst]
  rfl

/-- The second bias, viewed as a row. -/
theorem entry1_bias (c : Dev nD) :
    W3 m ρ c (Proc.devRef .tc main_v29) = shapeCast S1x40 (a5 m c) shapeCasts_S40_S1x40 := by
  dsimp only [W3, hostOps1]
  after_results
  rw [W2_of_ne m ρ c main_arg5 (by decide), entry0_b2]
  rfl

/-- The result buffer after the program is the program's result term of the arguments. -/
theorem result (c : Dev nD) :
    W4 m ρ c (Proc.devRef .tc main_v30) = kernelResult (a0 m c) (a1 m c) (a2 m c) (a3 m c) (a4 m c) (a5 m c) := by
  refine (W4_arr m ρ c 2).trans ?_
  rw [Cert.KernelIdeal.SoftmaxRegion.final (V3 m ρ) c]
  show softmaxFn (W3 m ρ c (Proc.devRef .tc main_v28)) (W3 m ρ c (Proc.devRef .tc main_v29)) = _
  rw [entry1_scores, entry1_bias]
  rfl

end Cert.KernelIdeal.HostReads

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.RefValue.lean ====
/-
  The reference's result read at one entry.

  The reference aggregates the input features over the edges (a gather of rows by source node and a scatter-add of
  rows by destination node), applies the first dense layer and clips below at zero, aggregates the hidden rows the
  same way, applies the second dense layer and its bias, and takes a row softmax. Read at node `n`, class `c`, the
  result is the softmax of the row

      fun k => ∑ k', (0 + ∑ e ∈ in-edges of n, H (source of e) k') · W₂ (k', k) + b₂ k

  at `c`, where `H r k' = max (∑ d, A₁ (r, d) · W₁ (d, k') + b₁ k') 0` and `A₁` is the first aggregation.
-/
import proofs.«151712_j1400159338837_2_alg».proof.Proof.Gen.ReferenceIdeal.Read
import proofs.«151712_j1400159338837_2_alg».proof.Proof.LibRowScatter
import proofs.«151712_j1400159338837_2_alg».proof.Proof.DensePayload
import proofs.«151712_j1400159338837_2_alg».proof.Proof.SoftmaxPayload

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Lib.RowScatter
open Cert.KernelIdeal.DensePayload (hiddenRow)
open Cert.KernelIdeal.SoftmaxPayload (rowMax softmaxRow)

variable (x0 : (⟨S100000x64, .f32⟩ : BufTy).Contents (Elt Ideal)) (x1 : (⟨S1200000x2, .i32⟩ : BufTy).Contents (Elt Ideal))
  (x2 : (⟨S64x128, .f32⟩ : BufTy).Contents (Elt Ideal)) (x3 : (⟨S128, .f32⟩ : BufTy).Contents (Elt Ideal))
  (x4 : (⟨S128x40, .f32⟩ : BufTy).Contents (Elt Ideal)) (x5 : (⟨S40, .f32⟩ : BufTy).Contents (Elt Ideal))

/-! ## Index bookkeeping: the composed index functions of the read-at-an-index lemmas, at coordinates -/

theorem lidx17 (r : Fin 100000) (k : Fin 128) (d : Fin 64) : lidx_main_v17 (ix2 r k) d = ix2 r d :=
  funext fun a => Fin.ext (by match a with | ⟨0, _⟩ => rfl | ⟨1, _⟩ => rfl)
theorem ridx17 (r : Fin 100000) (k : Fin 128) (d : Fin 64) : ridx_main_v17 (ix2 r k) d = ix2 d k :=
  funext fun a => Fin.ext (by match a with | ⟨0, _⟩ => rfl | ⟨1, _⟩ => rfl)
theorem idx1819 (r : Fin 100000) (k : Fin 128) : idx_main_v18 (idx_main_v19 (ix2 r k)) = ix1 k :=
  funext fun a => Fin.ext (by match a with | ⟨0, _⟩ => rfl)
theorem lidx32 (n : Fin 100000) (c : Fin 40) (k : Fin 128) : lidx_main_v32 (ix2 n c) k = ix2 n k :=
  funext fun a => Fin.ext (by match a with | ⟨0, _⟩ => rfl | ⟨1, _⟩ => rfl)
theorem ridx32 (n : Fin 100000) (c : Fin 40) (k : Fin 128) : ridx_main_v32 (ix2 n c) k = ix2 k c :=
  funext fun a => Fin.ext (by match a with | ⟨0, _⟩ => rfl | ⟨1, _⟩ => rfl)
theorem idx3334 (n : Fin 100000) (c : Fin 40) : idx_main_v33 (idx_main_v34 (ix2 n c)) = ix1 c :=
  funext fun a => Fin.ext (by match a with | ⟨0, _⟩ => rfl)
theorem idx3940 (n : Fin 100000) (c : Fin 40) : idx_main_v39 (idx_main_v40 (ix2 n c)) = ix1 n :=
  funext fun a => Fin.ext (by match a with | ⟨0, _⟩ => rfl)
theorem idx4445 (n : Fin 100000) (c : Fin 40) : idx_main_v44 (idx_main_v45 (ix2 n c)) = ix1 n :=
  funext fun a => Fin.ext (by match a with | ⟨0, _⟩ => rfl)
theorem idx43 (n : Fin 100000) (k : Fin 40) : idx_main_v43 (ix1 n) k = ix2 n k :=
  funext fun a => Fin.ext (by match a with | ⟨0, _⟩ => rfl | ⟨1, _⟩ => rfl)

/-- The reduced index `n` with column `k` put back is `(n, k)`. -/
theorem lift_ix2 (h : S100000x40.Reduces [1] S100000) (n : Fin 100000) (k : Fin (S100000x40.size 1)) :
    h.lift (ix1 n) k = ix2 n (⟨k.val, k.isLt⟩ : Fin 40) := by
  funext c; apply Fin.ext
  match c with
  | ⟨0, _⟩ => rfl
  | ⟨1, _⟩ => rfl

/-- There is at least one node. -/
theorem nodes_pos : 0 < 100000 := by norm_num

/-- Minus infinity is neutral for the maximum. -/
theorem max_negInf (y : EReal) : max (Ideal.ofBits .f32 0xFF800000#32) y = y := by
  simp [Ideal.ofBits, Ideal.ieee]

/-! ## The stages -/

/-- The hidden layer at row `r`, unit `k`. -/
theorem hidden_apply (r : Fin 100000) (k : Fin 128) :
    val_main_v21 (F := Ideal) x0 x1 x2 x3 (ix2 r k)
      = hiddenRow (fun d => val_main_v16 (F := Ideal) x0 x1 (ix2 r d)) x2 (fun k => x3 (ix1 k)) k := by
  rw [val_main_v21_apply, val_main_v20_apply, val_main_v17_apply, val_main_v19_apply, val_main_v18_apply,
    val_main_call0_v0_apply, val_main_call0_cst_apply]
  unfold hiddenRow
  simp only [lidx17, ridx17, idx1819, Ideal.maximumf_def, Ideal.addf_def, Ideal.ofBits_def, Ideal.ofBits_zero_f32]

/-- The gathered hidden rows: row `e` is the hidden row of the edge's source node. -/
theorem gathered_apply (e : Fin 1300000) (k : Fin 128) :
    val_main_v28 (F := Ideal) x0 x1 x2 x3 (ix2 e k)
      = val_main_v21 (F := Ideal) x0 x1 x2 x3 (ix2 (gatherRow 100000 nodes_pos (val_main_v27 (F := Ideal) x1) e) k) := by
  unfold val_main_v28
  exact gather_rows_apply nodes_pos gather_S100000x128_S1300000x1_S1300000x128_1_0_n_n_0_1_1128.wf _ _ e k

/-- The second aggregation at node `n`, unit `k`: zero plus the sum of the gathered rows over the edges into `n`. -/
theorem aggregated_apply (n : Fin 100000) (k : Fin 128) :
    val_main_v31 (F := Ideal) x0 x1 x2 x3 (ix2 n k)
      = 0 + ∑ e ∈ landsOn (val_main_v30 (F := Ideal) x1) 100000 n, val_main_v28 (F := Ideal) x0 x1 x2 x3 (ix2 e k) := by
  unfold val_main_v31
  refine (scatterAdd_rows_apply scatter_S100000x128_S1300000x1_S1300000x128_1_0_0_1.wf _ _ _ n k).trans ?_
  rw [val_main_v29_apply, val_main_cst_3_apply]
  show Ideal.ofBits .f32 0x00000000#32 + _ = _
  rw [Ideal.ofBits_zero_f32]

/-- The class scores at node `n`, class `c`. -/
theorem scores_apply (n : Fin 100000) (c : Fin 40) :
    val_main_v35 (F := Ideal) x0 x1 x2 x3 x4 x5 (ix2 n c)
      = (∑ k : Fin 128, val_main_v31 (F := Ideal) x0 x1 x2 x3 (ix2 n k) * x4 (ix2 k c)) + x5 (ix1 c) := by
  rw [val_main_v35_apply, val_main_v32_apply, val_main_v34_apply, val_main_v33_apply]
  simp only [lidx32, ridx32, idx3334, Ideal.addf_def]

/-- The row maximum the reference subtracts, at node `n`. -/
theorem rowMax_apply (n : Fin 100000) :
    val_main_v38 (F := Ideal) x0 x1 x2 x3 x4 x5 (ix1 n)
      = rowMax (fun k => val_main_v35 (F := Ideal) x0 x1 x2 x3 x4 x5 (ix2 n k)) := by
  rw [val_main_v38_apply, val_main_v37_apply, val_main_cst_5_apply]
  unfold val_main_v36
  generalize val_main_v35 (F := Ideal) x0 x1 x2 x3 x4 x5 = y
  show max (Ideal.ofBits .f32 0xFF800000#32) _ = _
  rw [max_negInf]
  have hred : S100000x40.Reduces [1] S100000 := by decide
  have e := Host.reduce_eq_fold_single (FloatOps.maximumf : Ideal .f32 → Ideal .f32 → Ideal .f32)
    (y : S100000x40.Idx → Ideal .f32) (val_main_cst_4 (F := Ideal) : S_.Idx → Ideal .f32) reducesTo_S100000x40_S100000_d1
    hred h_S_ (ix1 n)
  rw [val_main_cst_4_apply] at e
  refine e.trans ?_
  unfold rowMax
  refine congrArg (fun f => Finset.fold max (Ideal.ofBits .f32 0xFF800000#32) f (Finset.univ : Finset (Fin 40))) ?_
  funext k
  rw [Function.comp_apply]
  exact congrArg y (lift_ix2 hred n k)

/-- The result at node `n`, class `c`: the softmax of the node's row of class scores. -/
theorem result_softmax (n : Fin 100000) (c : Fin 40) :
    val_main_v46 (F := Ideal) x0 x1 x2 x3 x4 x5 (ix2 n c)
      = softmaxRow (fun k => val_main_v35 (F := Ideal) x0 x1 x2 x3 x4 x5 (ix2 n k)) c := by
  have he : ∀ k : Fin 40, val_main_v42 (F := Ideal) x0 x1 x2 x3 x4 x5 (ix2 n k)
      = Ideal.exp (val_main_v35 (F := Ideal) x0 x1 x2 x3 x4 x5 (ix2 n k)
          - rowMax (fun k => val_main_v35 (F := Ideal) x0 x1 x2 x3 x4 x5 (ix2 n k))) := fun k => by
    rw [val_main_v42_apply, val_main_v41_apply, val_main_v40_apply, val_main_v39_apply, idx3940, rowMax_apply]
    simp only [Ideal.hostUnary_exp_def, Ideal.subf_def]
  rw [val_main_v46_apply, val_main_v45_apply, val_main_v44_apply, idx4445, val_main_v43_apply, val_main_cst_6_apply, he c]
  unfold softmaxRow
  show Ideal.div _ (Ideal.ofBits .f32 0x00000000#32 + _) = _
  rw [Ideal.ofBits_zero_f32, zero_add]
  refine congrArg (Ideal.div _) (Finset.sum_congr rfl fun k _ => ?_)
  rw [idx43, he k]

/-- The hidden row of the source node of edge `e`. -/
def edgeHidden (e : Fin 1300000) (k' : Fin 128) : EReal :=
  hiddenRow (fun d => val_main_v16 (F := Ideal) x0 x1 (ix2 (gatherRow 100000 nodes_pos (val_main_v27 (F := Ideal) x1) e) d))
    x2 (fun k => x3 (ix1 k)) k'

/-- The hidden rows are nonnegative. -/
theorem edgeHidden_nonneg (e : Fin 1300000) (k' : Fin 128) : 0 ≤ edgeHidden x0 x1 x2 x3 e k' :=
  Cert.KernelIdeal.DensePayload.hiddenRow_nonneg _ _ _ _

/-- The gathered hidden rows, down to the first aggregation. -/
theorem gathered_eq (e : Fin 1300000) (k' : Fin 128) :
    val_main_v28 (F := Ideal) x0 x1 x2 x3 (ix2 e k') = edgeHidden x0 x1 x2 x3 e k' :=
  (gathered_apply x0 x1 x2 x3 e k').trans (hidden_apply x0 x1 x2 x3 _ k')

/-- The second aggregation, down to the first aggregation. -/
theorem aggregated_eq (n : Fin 100000) (k' : Fin 128) :
    val_main_v31 (F := Ideal) x0 x1 x2 x3 (ix2 n k')
      = 0 + ∑ e ∈ landsOn (val_main_v30 (F := Ideal) x1) 100000 n, edgeHidden x0 x1 x2 x3 e k' :=
  (aggregated_apply x0 x1 x2 x3 n k').trans
    (congrArg (fun s => (0 : EReal) + s) (Finset.sum_congr rfl fun e _ => gathered_eq x0 x1 x2 x3 e k'))

/-- The class scores, down to the first aggregation. -/
theorem scores_eq (n : Fin 100000) (k : Fin 40) :
    val_main_v35 (F := Ideal) x0 x1 x2 x3 x4 x5 (ix2 n k)
      = (∑ k' : Fin 128, (0 + ∑ e ∈ landsOn (val_main_v30 (F := Ideal) x1) 100000 n, edgeHidden x0 x1 x2 x3 e k') * x4 (ix2 k' k))
        + x5 (ix1 k) :=
  (scores_apply x0 x1 x2 x3 x4 x5 n k).trans
    (congrArg (fun s => s + x5 (ix1 k))
      (Finset.sum_congr rfl fun k' _ => congrArg (fun a => a * x4 (ix2 k' k)) (aggregated_eq x0 x1 x2 x3 n k')))

/-- The result at node `n`, class `c`, down to the first aggregation. -/
theorem result_apply (n : Fin 100000) (c : Fin 40) :
    val_main_v46 (F := Ideal) x0 x1 x2 x3 x4 x5 (ix2 n c)
      = softmaxRow (fun k => (∑ k' : Fin 128,
            (0 + ∑ e ∈ landsOn (val_main_v30 (F := Ideal) x1) 100000 n, edgeHidden x0 x1 x2 x3 e k') * x4 (ix2 k' k))
          + x5 (ix1 k)) c :=
  (result_softmax x0 x1 x2 x3 x4 x5 n c).trans
    (congrArg (fun f => softmaxRow f c) (funext fun k => scores_eq x0 x1 x2 x3 x4 x5 n k))

end Cert.ReferenceIdeal.RefValue

end
-- ==== Proof.Algebra.lean ====
/-
  Pushing a matrix product through a sum of nonnegative rows.

  On the extended reals multiplication does not distribute over addition in general (`∞ + (−∞)` is `−∞`), but it does
  over sums of nonnegative terms: `(∑ e, a e) · w = ∑ e, a e · w` whenever every `a e ≥ 0`, for ANY `w`. So for a
  family of nonnegative rows `h e` and a matrix column `w`,

      ∑ k, (z + ∑ e ∈ E, h e k) · w k = z' + ∑ e ∈ E, ∑ k, h e k · w k        (z = z' = 0):

  summing rows first and multiplying afterwards is multiplying each row first and summing afterwards.
-/
import Mathlib.Data.EReal.Operations
import Mathlib.Algebra.BigOperators.Group.Finset.Basic
import Mathlib.Algebra.Order.BigOperators.Group.Finset

open scoped BigOperators

namespace Cert.Gcn.Algebra

/-- A sum of nonnegative extended reals times any extended real is the sum of the products. -/
theorem sum_mul_of_nonneg {ι : Type*} (E : Finset ι) (a : ι → EReal) (ha : ∀ e, 0 ≤ a e) (w : EReal) :
    (∑ e ∈ E, a e) * w = ∑ e ∈ E, a e * w := by
  classical
  induction E using Finset.induction_on with
  | empty => simp
  | insert e E he ih =>
    rw [Finset.sum_insert he, Finset.sum_insert he,
      EReal.right_distrib_of_nonneg (ha e) (Finset.sum_nonneg fun e _ => ha e), ih]

/-- Aggregating nonnegative rows and then multiplying by a matrix column is multiplying each row by the column and
    then aggregating. -/
theorem aggregate_then_dot {ι : Type*} {K : ℕ} (E : Finset ι) (h : ι → Fin K → EReal) (hh : ∀ e k, 0 ≤ h e k)
    (w : Fin K → EReal) :
    ∑ k : Fin K, (0 + ∑ e ∈ E, h e k) * w k = 0 + ∑ e ∈ E, ∑ k : Fin K, h e k * w k := by
  simp only [zero_add]
  rw [Finset.sum_comm]
  exact Finset.sum_congr rfl fun k _ => sum_mul_of_nonneg E (fun e => h e k) (fun e => hh e k) (w k)

end Cert.Gcn.Algebra
-- ==== Proof.Bridge.lean ====
/-
  The two programs compute one function.

  The kernel program pushes the second weight matrix through the second aggregation: it multiplies each hidden row
  by `W₂` first and aggregates the 40-wide products over the edges, where the reference aggregates the 128-wide hidden
  rows and multiplies afterwards. The hidden rows are clipped below at zero, so every entry is nonnegative, and on the
  extended reals a sum of nonnegative terms times any factor is the sum of the products: the two class-score arrays
  agree entry by entry, and so do their row softmaxes.
-/
import proofs.«151712_j1400159338837_2_alg».proof.Proof.HostReads
import proofs.«151712_j1400159338837_2_alg».proof.Proof.RefValue
import proofs.«151712_j1400159338837_2_alg».proof.Proof.LibRowScatter
import proofs.«151712_j1400159338837_2_alg».proof.Proof.Algebra

noncomputable section

open scoped BigOperators

namespace Cert.Gcn.Bridge

open Idealize.ShloMosaic Idealize.ShloMosaic.ValueIdx Cert.Lib.RowScatter
open Cert.KernelIdeal
open Cert.KernelIdeal.Gen
open Cert.KernelIdeal.DensePayload (hiddenRow hiddenRow_nonneg denseFn denseFn_apply)
open Cert.KernelIdeal.SoftmaxPayload (softmaxRow softmaxFn softmaxFn_apply)
open Cert.KernelIdeal.HostReads (kernelScores kernelResult)
open Cert.ReferenceIdeal.Read (val_main_v16 val_main_v27 val_main_v30 val_main_v46)
open Cert.ReferenceIdeal.RefValue (nodes_pos edgeHidden edgeHidden_nonneg)

variable (x0 : S100000x64.Idx → EReal) (x1 : S1200000x2.Idx → BitVec 32) (x2 : S64x128.Idx → EReal)
  (x3 : S128.Idx → EReal) (x4 : S128x40.Idx → EReal) (x5 : S40.Idx → EReal)

/-- The first bias viewed as a row reads, at `(0, k)`, the bias at `k`. -/
theorem biasRow1 (k : Fin 128) : shapeCast S1x128 x3 shapeCasts_S128_S1x128 (ix2 (0 : Fin 1) k) = x3 (ix1 k) := by
  refine shapeCast_apply x3 shapeCasts_S128_S1x128 _ _ ?_
  rw [Shape.rowMajor_val_one, Shape.rowMajor_val_two]
  show k.val = 0 * 128 + k.val
  omega

/-- The second bias viewed as a row reads, at `(0, k)`, the bias at `k`. -/
theorem biasRow2 (k : Fin 40) : shapeCast S1x40 x5 shapeCasts_S40_S1x40 (ix2 (0 : Fin 1) k) = x5 (ix1 k) := by
  refine shapeCast_apply x5 shapeCasts_S40_S1x40 _ _ ?_
  rw [Shape.rowMajor_val_one, Shape.rowMajor_val_two]
  show k.val = 0 * 40 + k.val
  omega

/-- The array the second aggregation starts from is zero everywhere. -/
theorem zeros_apply (n : Fin 100000) (k : Fin 40) :
    broadcastInDim S100000x40 ![] bcast_S_S100000x40 (constant (F := Ideal) S_ .f32 0x00000000#32) (ix2 n k) = 0 := by
  refine (broadcastInDim_apply _ bcast_S_S100000x40 _ (ix2 n k) (fun a => a.elim0) (fun a => a.elim0)).trans ?_
  exact Ideal.ofBits_zero_f32

/-- Row `e` of the gathered dense-layer result: the hidden row of the edge's source node times the second weight matrix. -/
theorem gathered_dense (e : Fin 1300000) (k : Fin 40) :
    Host.gather gather_S100000x40_S1300000x1_S1300000x40_1_0_n_n_0_1_140
        (denseFn (val_main_v16 (F := Ideal) x0 x1) x2 (shapeCast S1x128 x3 shapeCasts_S128_S1x128) x4)
        (val_main_v27 (F := Ideal) x1) (ix2 e k)
      = ∑ k' : Fin 128, edgeHidden x0 x1 x2 x3 e k' * x4 (ix2 k' k) := by
  refine (gather_rows_apply nodes_pos gather_S100000x40_S1300000x1_S1300000x40_1_0_n_n_0_1_140.wf _ _ e k).trans ?_
  unfold edgeHidden
  generalize gatherRow 100000 nodes_pos (val_main_v27 (F := Ideal) x1) e = r
  refine (denseFn_apply (val_main_v16 (F := Ideal) x0 x1) x2 (shapeCast S1x128 x3 shapeCasts_S128_S1x128) x4 (ix2 r k)
    r k rfl rfl).trans ?_
  refine Finset.sum_congr rfl fun k' _ => congrArg (fun a => a * x4 (ix2 k' k)) ?_
  exact congrArg (fun b => hiddenRow (fun d => val_main_v16 (F := Ideal) x0 x1 (ix2 r d)) x2 b k')
    (funext fun k => biasRow1 x3 k)

/-- The kernel program's aggregated class scores at node `n`, class `k`: zero plus, over the edges into `n`, the
    source node's hidden row times column `k` of the second weight matrix. -/
theorem kernelScores_apply (n : Fin 100000) (k : Fin 40) :
    kernelScores x0 x1 x2 x3 x4 (ix2 n k)
      = 0 + ∑ e ∈ landsOn (val_main_v30 (F := Ideal) x1) 100000 n, ∑ k' : Fin 128, edgeHidden x0 x1 x2 x3 e k' * x4 (ix2 k' k) := by
  unfold kernelScores
  refine (scatterAdd_rows_apply scatter_S100000x40_S1300000x1_S1300000x40_1_0_0_1.wf _ _ _ n k).trans ?_
  rw [zeros_apply n k]
  refine congrArg (fun s => (0 : EReal) + s) (Finset.sum_congr rfl fun e _ => ?_)
  exact gathered_dense x0 x1 x2 x3 x4 e k

/-- The kernel program's result at node `n`, class `c`. -/
theorem kernelResult_apply (n : Fin 100000) (c : Fin 40) :
    kernelResult x0 x1 x2 x3 x4 x5 (ix2 n c)
      = softmaxRow (fun k => (0 + ∑ e ∈ landsOn (val_main_v30 (F := Ideal) x1) 100000 n,
            ∑ k' : Fin 128, edgeHidden x0 x1 x2 x3 e k' * x4 (ix2 k' k)) + x5 (ix1 k)) c := by
  unfold kernelResult
  refine (softmaxFn_apply _ _ _ n c rfl rfl).trans ?_
  refine congrArg (fun f => softmaxRow f c) (funext fun k => ?_)
  rw [kernelScores_apply x0 x1 x2 x3 x4 n k, biasRow2 x5 k]

/-- The kernel program's result term and the reference's result term are one function of the arguments. -/
theorem result_eq : kernelResult x0 x1 x2 x3 x4 x5 = val_main_v46 (F := Ideal) x0 x1 x2 x3 x4 x5 := by
  funext i
  obtain ⟨n, c, rfl⟩ : ∃ (n : Fin 100000) (c : Fin 40), i = ix2 n c := ⟨i 0, i 1, eq_ix2 i⟩
  refine (kernelResult_apply x0 x1 x2 x3 x4 x5 n c).trans
    (Eq.trans ?_ (Cert.ReferenceIdeal.RefValue.result_apply x0 x1 x2 x3 x4 x5 n c).symm)
  refine congrArg (fun f => softmaxRow f c) (funext fun k => congrArg (fun s => s + x5 (ix1 k)) ?_)
  exact (Cert.Gcn.Algebra.aggregate_then_dot (landsOn (val_main_v30 (F := Ideal) x1) 100000 n)
    (fun e k' => edgeHidden x0 x1 x2 x3 e k') (fun e k' => edgeHidden_nonneg x0 x1 x2 x3 e k') (fun k' => x4 (ix2 k' k))).symm

end Cert.Gcn.Bridge

end
-- ==== Proof.lean ====
/-
  The certificate of a two-layer graph convolution: a Pallas program with two kernels against its jax.numpy reference.

  Both programs aggregate the node features over the edges (self-loops appended), apply a dense layer and clip below at
  zero. The reference then aggregates the hidden rows, applies the second dense layer and its bias, and takes a row
  softmax. The kernel program instead applies the second weight matrix inside its first kernel, aggregates the
  40-wide products, and adds the bias and takes the softmax inside its second kernel. At the ideal values (extended
  reals, exact operations) the two results are equal: aggregation is a sum, the hidden rows are nonnegative, and a sum of
  nonnegative extended reals times any factor is the sum of the products.

  The three frames are the generated ones (the reference's is its run with the result dropped); the idealization
  rewrote nothing, so `preserves` is trivial; `algebraic` joins the kernel program's run, read through its two regions
  and its host operations as one term of the arguments, with the reference's run.
-/
import proofs.«151712_j1400159338837_2_alg».proof.Defs
import proofs.«151712_j1400159338837_2_alg».proof.Proof.Gen.Kernel
import proofs.«151712_j1400159338837_2_alg».proof.Proof.Gen.Kernel.Skeleton
import proofs.«151712_j1400159338837_2_alg».proof.Proof.Gen.Kernel.Launch
import proofs.«151712_j1400159338837_2_alg».proof.Proof.Gen.Kernel.Points
import proofs.«151712_j1400159338837_2_alg».proof.Proof.Gen.Kernel.Frame
import proofs.«151712_j1400159338837_2_alg».proof.Proof.Gen.KernelIdeal
import proofs.«151712_j1400159338837_2_alg».proof.Proof.Gen.KernelIdeal.Skeleton
import proofs.«151712_j1400159338837_2_alg».proof.Proof.Gen.KernelIdeal.Launch
import proofs.«151712_j1400159338837_2_alg».proof.Proof.Gen.KernelIdeal.Points
import proofs.«151712_j1400159338837_2_alg».proof.Proof.Gen.KernelIdeal.Frame
import proofs.«151712_j1400159338837_2_alg».proof.Proof.Gen.ReferenceIdeal
import proofs.«151712_j1400159338837_2_alg».proof.Proof.Gen.ReferenceIdeal.Run
import proofs.«151712_j1400159338837_2_alg».proof.Proof.Gen.ReferenceIdeal.Read
import proofs.«151712_j1400159338837_2_alg».proof.Proof.Gen.Pre_finite_inputs
import proofs.«151712_j1400159338837_2_alg».proof.Proof.KernelRun
import proofs.«151712_j1400159338837_2_alg».proof.Proof.HostReads
import proofs.«151712_j1400159338837_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel program's run
    leaves its result term of the arguments, the reference's run leaves its own, and the two terms are one function. -/
theorem algebraic : Cert.algebraic_KernelIdeal_ReferenceIdeal := by
  intro m ρ m' ρ' _ hagree
  refine ⟨fun c => Cert.KernelIdeal.HostReads.kernelResult (Cert.KernelIdeal.HostReads.a0 m c)
    (Cert.KernelIdeal.HostReads.a1 m c) (Cert.KernelIdeal.HostReads.a2 m c) (Cert.KernelIdeal.HostReads.a3 m c)
    (Cert.KernelIdeal.HostReads.a4 m c) (Cert.KernelIdeal.HostReads.a5 m c), ?_, ?_⟩
  · exact (θ_run Cert.KernelIdeal.defs _ _).mono
      (fun r h c => ⟨(h c).1.trans (Cert.KernelIdeal.HostReads.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v46_eq m' c).trans ?_
    rw [(hagree c).1, (hagree c).2.1, (hagree c).2.2.1, (hagree c).2.2.2.1, (hagree c).2.2.2.2.1, (hagree c).2.2.2.2.2]
    exact (Cert.Gcn.Bridge.result_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
